-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x1024 : Shape := ⟨2, ![1024, 1024]⟩
abbrev S1024 : Shape := ⟨1, ![1024]⟩
abbrev S1024x1024x3 : Shape := ⟨3, ![1024, 1024, 3]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1024x3 : S_.BroadcastsInDim S1024x1024x3 (![] : Fin 0 → Fin S1024x1024x3.rank)
  reducesTo_S1024x1024x3_S_d0_1_2 : S1024x1024x3.ReducesTo [0, 1, 2] S_

variable [Facts]

def fn_part1 {F : FTy → Type} [FloatOps F] (main_v13 : IVec S_ 1) (main_v16 : IVec S1024x1024x3 1) : IVec S_ 1 :=
  let main_c_5 : IVec S_ 1 := constantI S_ 1 1#1
  let main_v17 : IVec S_ 1 := (fun x v => Host.reduce IntOp.andi x v reducesTo_S1024x1024x3_S_d0_1_2 h_S_) main_v16 main_c_5
  let main_v18 : IVec S_ 1 := andi main_v13 main_v17
  main_v18

def fn {F : FTy → Type} [FloatOps F] (main_arg0 : FVec F S256x1024 .f32) (main_arg1 : FVec F S1024x1024 .f32) (main_arg2 : FVec F S1024 .f32) (main_arg3 : FVec F S1024x1024x3 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024x3 .f32 := Host.absf main_arg3
  let main_cst_4 : FVec F S_ .f32 := constant S_ .f32 0x7F800000#32
  let main_v15 : FVec F S1024x1024x3 .f32 := broadcastInDim S1024x1024x3 ![] bcast_S_S1024x1024x3 main_cst_4
  let main_v16 : IVec S1024x1024x3 1 := cmpf .olt main_v14 main_v15
  fn_part1 (F := F) main_v13 main_v16
-- ==== Kernel.lean ====
abbrev S256x1024 : Shape := ⟨2, ![256, 1024]⟩
abbrev S1024x1024 : Shape := ⟨2, ![1024, 1024]⟩
abbrev S1024 : Shape := ⟨1, ![1024]⟩
abbrev S1024x1024x3 : Shape := ⟨3, ![1024, 1024, 3]⟩
abbrev S_ : Shape := ⟨0, ![]⟩
abbrev S1024x1024x1 : Shape := ⟨3, ![1024, 1024, 1]⟩
abbrev S1x1024 : Shape := ⟨2, ![1, 1024]⟩
abbrev S64x1024 : Shape := ⟨2, ![64, 1024]⟩
abbrev S128x1024 : Shape := ⟨2, ![128, 1024]⟩
abbrev S1x128 : Shape := ⟨2, ![1, 128]⟩
abbrev S64x128 : Shape := ⟨2, ![64, 128]⟩
abbrev S64x64 : Shape := ⟨2, ![64, 64]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩

abbrev nBuf : Space → Nat
  | .hbm => 32
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024, .f32⟩
  | .hbm, ⟨3, _⟩ => ⟨S1024x1024x3, .f32⟩
  | .hbm, ⟨4, _⟩ => ⟨S_, .f32⟩
  | .hbm, ⟨5, _⟩ => ⟨S1024x1024x3, .f32⟩
  | .hbm, ⟨6, _⟩ => ⟨S1024x1024x3, .f32⟩
  | .hbm, ⟨7, _⟩ => ⟨S_, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024x1, .f32⟩
  | .hbm, ⟨13, _⟩ => ⟨S1024x1024x3, .f32⟩
  | .hbm, ⟨14, _⟩ => ⟨S1024x1024x3, .f32⟩
  | .hbm, ⟨15, _⟩ => ⟨S1024x1024x3, .f32⟩
  | .hbm, ⟨16, _⟩ => ⟨S_, .f32⟩
  | .hbm, ⟨17, _⟩ => ⟨S1024x1024, .f32⟩
  | .hbm, ⟨18, _⟩ => ⟨S1024x1024x1, .f32⟩
  | .hbm, ⟨19, _⟩ => ⟨S1024x1024x3, .f32⟩
  | .hbm, ⟨20, _⟩ => ⟨S1024x1024x3, .f32⟩
  | .hbm, ⟨21, _⟩ => ⟨S1024x1024, .f32⟩
  | .hbm, ⟨22, _⟩ => ⟨S1024x1024, .f32⟩
  | .hbm, ⟨23, _⟩ => ⟨S1024x1024x1, .f32⟩
  | .hbm, ⟨24, _⟩ => ⟨S1024x1024x1, .f32⟩
  | .hbm, ⟨25, _⟩ => ⟨S1024x1024x1, .f32⟩
  | .hbm, ⟨26, _⟩ => ⟨S1024x1024x3, .f32⟩
  | .hbm, ⟨27, _⟩ => ⟨S1024x1024x3, .f32⟩
  | .hbm, ⟨28, _⟩ => ⟨S_, .f32⟩
  | .hbm, ⟨29, _⟩ => ⟨S1024x1024, .f32⟩
  | .hbm, ⟨30, _⟩ => ⟨S1x1024, .f32⟩
  | .hbm, ⟨31, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S128x1024, .f32⟩
  | .local _ .vmem, ⟨3, _⟩ => ⟨S128x1024, .f32⟩
  | .local _ .vmem, ⟨4, _⟩ => ⟨S1x128, .f32⟩
  | .local _ .vmem, ⟨5, _⟩ => ⟨S1x128, .f32⟩
  | .local _ .vmem, ⟨6, _⟩ => ⟨S64x128, .f32⟩
  | .local _ .vmem, ⟨7, _⟩ => ⟨S64x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_off1 (c0_i32 : BitVec 32) : Fin 2 → Nat :=
  let c0 : Index := 0#32
  let c64_i32 : BitVec 32 := 64#32
  let v1 : BitVec 32 := Scalar.muli c0_i32 c64_i32
  let v2 : Index := Scalar.indexCast v1
  ![0, v2.toNat]
def k0_off2 (c0_i32 : BitVec 32) : Fin 2 → Nat :=
  let c0_0 : Index := 0#32
  let c64_i32 : BitVec 32 := 64#32
  let v1 : BitVec 32 := Scalar.muli c0_i32 c64_i32
  let v4 : Index := Scalar.indexCast v1
  ![0, v4.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S1024x1024x3 : S_.BroadcastsInDim S1024x1024x3 (![] : Fin 0 → Fin S1024x1024x3.rank)
  reducesTo_S1024x1024x3_S1024x1024_d2 : S1024x1024x3.ReducesTo [2] S1024x1024
  h_S_ : 0 < S_.numel
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S1024x1024x1_S1024x1024x3_0_1_2 : S1024x1024x1.BroadcastsInDim S1024x1024x3 (![0, 1, 2] : Fin 3 → Fin S1024x1024x3.rank)
  concatenates_S1024x1024x1_S1024x1024x1_S1024x1024x1_S1024x1024x3_d2 : Shape.Concatenates [S1024x1024x1, S1024x1024x1, S1024x1024x1] S1024x1024x3 2
  shapeCasts_S1024_S1x1024 : S1024.ShapeCasts S1x1024
  h_S64x64 : 0 < S64x64.numel
  h_S128x64 : 0 < S128x64.numel
  shapeCasts_S128x64_S128x64 : S128x64.ShapeCasts S128x64
  shapeCasts_S64x64_S64x1x64 : S64x64.ShapeCasts S64x1x64
  shapeCasts_S128x64_S1x128x64 : S128x64.ShapeCasts S1x128x64
  broadcasts_S64x1x64_S64x128x64 : S64x1x64.Broadcasts S64x128x64
  broadcasts_S1x128x64_S64x128x64 : S1x128x64.Broadcasts S64x128x64
  reduces_S64x128x64_S64x128 : S64x128x64.Reduces [2] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  hrank0 : 0 < grid0.rank
  k0_off1_inb : ∀ (r : Fin 16), ∀ a, (k0_off1 (BitVec.ofNat 32 r.val)) a + S64x64.size a ≤ S64x1024.size a
  k0_off2_inb : ∀ (r : Fin 16), ∀ a, (k0_off2 (BitVec.ofNat 32 r.val)) a + S128x64.size a ≤ S128x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S256x1024.size a
  hwx0_0 : ∀ i : grid0.Coords, EltTy.bits .f32 = 32 ∨ (Rect.block (s := S256x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S1024x1024.size a
  hwx0_1 : ∀ i : grid0.Coords, EltTy.bits .f32 = 32 ∨ (Rect.block (s := S1024x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S256x1024.size a
  hwx0_3 : ∀ i : grid0.Coords, EltTy.bits .f32 = 32 ∨ (Rect.block (s := S256x1024) S64x128.size (cc0_transform_3 i) (hinb0_3 i)).WholeWords (EltTy.packing .f32)

variable [Facts₀]

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x1024 : Shape := ⟨2, ![1024, 1024]⟩
abbrev S1024 : Shape := ⟨1, ![1024]⟩
abbrev S1024x1024x3 : Shape := ⟨3, ![1024, 1024, 3]⟩
abbrev S_ : Shape := ⟨0, ![]⟩
abbrev S1024x1024x1 : Shape := ⟨3, ![1024, 1024, 1]⟩
abbrev S256x1x1024 : Shape := ⟨3, ![256, 1, 1024]⟩
abbrev S1x1024x1024 : Shape := ⟨3, ![1, 1024, 1024]⟩
abbrev S256x1024x1024 : Shape := ⟨3, ![256, 1024, 1024]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024, .f32⟩
  | .hbm, ⟨3, _⟩ => ⟨S1024x1024x3, .f32⟩
  | .hbm, ⟨4, _⟩ => ⟨S_, .f32⟩
  | .hbm, ⟨5, _⟩ => ⟨S1024x1024x3, .f32⟩
  | .hbm, ⟨6, _⟩ => ⟨S1024x1024x3, .f32⟩
  | .hbm, ⟨7, _⟩ => ⟨S_, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024x1, .f32⟩
  | .hbm, ⟨13, _⟩ => ⟨S1024x1024x3, .f32⟩
  | .hbm, ⟨14, _⟩ => ⟨S1024x1024x3, .f32⟩
  | .hbm, ⟨15, _⟩ => ⟨S1024x1024x3, .f32⟩
  | .hbm, ⟨16, _⟩ => ⟨S_, .f32⟩
  | .hbm, ⟨17, _⟩ => ⟨S1024x1024, .f32⟩
  | .hbm, ⟨18, _⟩ => ⟨S1024x1024x1, .f32⟩
  | .hbm, ⟨19, _⟩ => ⟨S1024x1024x3, .f32⟩
  | .hbm, ⟨20, _⟩ => ⟨S1024x1024x3, .f32⟩
  | .hbm, ⟨21, _⟩ => ⟨S1024x1024, .f32⟩
  | .hbm, ⟨22, _⟩ => ⟨S1024x1024, .f32⟩
  | .hbm, ⟨23, _⟩ => ⟨S1024x1024x1, .f32⟩
  | .hbm, ⟨24, _⟩ => ⟨S1024x1024x1, .f32⟩
  | .hbm, ⟨25, _⟩ => ⟨S1024x1024x1, .f32⟩
  | .hbm, ⟨26, _⟩ => ⟨S1024x1024x3, .f32⟩
  | .hbm, ⟨27, _⟩ => ⟨S1024x1024x3, .f32⟩
  | .hbm, ⟨28, _⟩ => ⟨S_, .f32⟩
  | .hbm, ⟨29, _⟩ => ⟨S1024x1024, .f32⟩
  | .hbm, ⟨30, _⟩ => ⟨S256x1x1024, .f32⟩
  | .hbm, ⟨31, _⟩ => ⟨S1x1024x1024, .f32⟩
  | .hbm, ⟨32, _⟩ => ⟨S256x1024x1024, .f32⟩
  | .hbm, ⟨33, _⟩ => ⟨S256x1024x1024, .f32⟩
  | .hbm, ⟨34, _⟩ => ⟨S256x1024x1024, .f32⟩
  | .hbm, ⟨35, _⟩ => ⟨S256x1024x1024, .f32⟩
  | .hbm, ⟨36, _⟩ => ⟨S_, .f32⟩
  | .hbm, ⟨37, _⟩ => ⟨S256x1024, .f32⟩
  | .hbm, ⟨38, _⟩ => ⟨S1x1024, .f32⟩
  | .hbm, ⟨39, _⟩ => ⟨S256x1024, .f32⟩
  | .hbm, ⟨40, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S_S1024x1024x3 : S_.BroadcastsInDim S1024x1024x3 (![] : Fin 0 → Fin S1024x1024x3.rank)
  reducesTo_S1024x1024x3_S1024x1024_d2 : S1024x1024x3.ReducesTo [2] S1024x1024
  h_S_ : 0 < S_.numel
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S1024x1024x1_S1024x1024x3_0_1_2 : S1024x1024x1.BroadcastsInDim S1024x1024x3 (![0, 1, 2] : Fin 3 → Fin S1024x1024x3.rank)
  concatenates_S1024x1024x1_S1024x1024x1_S1024x1024x1_S1024x1024x3_d2 : Shape.Concatenates [S1024x1024x1, S1024x1024x1, S1024x1024x1] S1024x1024x3 2
  bcast_S256x1024_S256x1x1024_0_2 : S256x1024.BroadcastsInDim S256x1x1024 (![0, 2] : Fin 2 → Fin S256x1x1024.rank)
  bcast_S1024x1024_S1x1024x1024_1_2 : S1024x1024.BroadcastsInDim S1x1024x1024 (![1, 2] : Fin 2 → Fin S1x1024x1024.rank)
  bcast_S256x1x1024_S256x1024x1024_0_1_2 : S256x1x1024.BroadcastsInDim S256x1024x1024 (![0, 1, 2] : Fin 3 → Fin S256x1024x1024.rank)
  bcast_S1x1024x1024_S256x1024x1024_0_1_2 : S1x1024x1024.BroadcastsInDim S256x1024x1024 (![0, 1, 2] : Fin 3 → Fin S256x1024x1024.rank)
  reducesTo_S256x1024x1024_S256x1024_d2 : S256x1024x1024.ReducesTo [2] S256x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)

variable [Facts₀]

class Facts : Prop extends Facts₀ where

variable [Facts]
-- ==== Proof.BitsEntry.lean ====
/-
  The kernel's @main, as printed at the word level, up to its one region, read as a frame.

  The program is 27 host operations (the mixing weights: a softmax over the last axis of the logits, the stack
  of W, tanh W and sin W joined along that axis, their weighted sum; and the bias re-laid as one row), then one
  pipelined region over a 4 x 8 grid. This module says what every TensorCore buffer holds when the region is
  entered (the host prefix folded over the launch memory), that none of the four argument arrays is written by
  the prefix, what block of its array each window shows at a grid point, that an input window's staging buffer
  holds exactly that block at every point (fetched there, or kept from the point before when the index map
  has not moved), and how a run of the region to the pipeline library's frame post gives back the four
  argument arrays unchanged. Everything is stated for any float instance.
-/
import proofs.«174924_j44813688767074_2_alg».proof.Proof.Gen.Kernel.Launch
import proofs.«174924_j44813688767074_2_alg».proof.Proof.Gen.Kernel.Skeleton
import proofs.«174924_j44813688767074_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at the region's entry -/

/-- Core `c`'s TensorCore buffers when the region is entered: the host prefix folded over the launch memory. -/
abbrev V (c : Dev nD) (b : Ref sig .tc) : Buf (Elt F) ((c : Thread nD τ).loc b) :=
  StableHlo.after (List.flatten [hostOps0]) (fun b => m (c, b)) b

/-- No host operation of the prefix allocates: each writes a buffer of the signature. -/
theorem hostOps0_fresh : (hostOps0 : List (HloOp τ sig (Elt F))).Forall fun op => op.fresh = ∅ := by
  simp only [List.Forall]; repeat' constructor

/-- @main is the host prefix and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (show List.Forall _ [hostOps0] from (hostOps0_sub : List.Forall _ hostOps0))
    (show List.Forall _ [hostOps0] from (hostOps0_fresh : List.Forall _ hostOps0)) main_chain

/-- The activations are written by no host operation: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the weights, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- nor the bias, -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- nor the mixing logits. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' window (64 rows, all 1024 columns; its index moves only with the first grid axis) holds its
    block at every point: fetched where the row block changes, kept from the point before elsewhere. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The mixed weights' window (128 rows, all columns) holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias row's window (128 entries) holds its block at every point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a frame run -/

/-- From a run of @main to the pipeline library's frame post: the activations are window 0's array, an input,
    so they end as the region found them; the weights, the bias and the logits are staged by no window, so they end
    as the region found them; and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.Kernel.Frm

end
-- ==== Proof.BitsBody.lean ====
/-
  What one call of the word-level kernel's body does to its four staging buffers.

  The body reads the activations' buffer (64 x 1024) and the mixed weights' buffer (128 x 1024) sixteen times
  each, 64 columns at a time, adds up over the sixteen column chunks the row-by-row sums of tanh of the products,
  adds the bias row, and stores the 64 x 128 result over the whole output buffer (after one load of that buffer
  whose value it never uses). So after the body the three input buffers hold what they held and the output
  buffer holds one function of them; the arithmetic stays folded inside the skeleton's named payloads.
-/
import proofs.«174924_j44813688767074_2_alg».proof.Proof.Gen.Kernel.Launch
import proofs.«174924_j44813688767074_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- Columns 64 r … 64 r + 63 of the activations' buffer, all 64 rows. -/
abbrev hcols (r : Fin 16) : Rect S64x1024 := Rect.unit (s := S64x1024) (k0_off1 (BitVec.ofNat 32 r.val)) S64x64.size (k0_off1_inb r)
/-- The same columns of the mixed weights' buffer, all 128 rows. -/
abbrev wcols (r : Fin 16) : Rect S128x1024 := Rect.unit (s := S128x1024) (k0_off2 (BitVec.ofNat 32 r.val)) S128x64.size (k0_off2_inb r)
/-- The whole bias row. -/
abbrev brow : Rect S1x128 := Rect.unit (s := S1x128) ![0, 0] S1x128.size inb_S1x128_S1x128_0_0
/-- The whole output buffer. -/
abbrev oall : Rect S64x128 := Rect.unit (s := S64x128) ![0, 0] S64x128.size inb_S64x128_S64x128_0_0

/-- Column chunk `r` of the activations' buffer, as the body loads it. -/
abbrev hpc (x0 : Vec F S64x1024 .f32) (r : Fin 16) : Vec F S64x64 .f32 := View.ld x0 (hcols r)
/-- Column chunk `r` of the mixed weights' buffer. -/
abbrev wpc (x1 : Vec F S128x1024 .f32) (r : Fin 16) : Vec F S128x64 .f32 := View.ld x1 (wcols r)

/-- The value the body stores: the running sum over the sixteen chunks (chunks 0–1, then 2, then 3–5, 6–8, 9–11,
    12–14 and last 15, as the body's straight-line text groups them), plus the bias row. -/
def stored (x0 : Vec F S64x1024 .f32) (x1 : Vec F S128x1024 .f32) (x2 : Vec F S1x128 .f32) : FVec F S64x128 .f32 :=
  k0_pay1
    (k0_pay7
      (k0_pay6
        (k0_pay5
          (k0_pay4 (k0_pay2 (hpc x0 0) (wpc x1 0) (hpc x0 1) (wpc x1 1)) (k0_pay3 (hpc x0 2) (wpc x1 2))
            (hpc x0 3) (wpc x1 3) (hpc x0 4) (wpc x1 4) (hpc x0 5) (wpc x1 5))
          (hpc x0 6) (wpc x1 6) (hpc x0 7) (wpc x1 7) (hpc x0 8) (wpc x1 8))
        (hpc x0 9) (wpc x1 9) (hpc x0 10) (wpc x1 10) (hpc x0 11) (wpc x1 11))
      (hpc x0 12) (wpc x1 12) (hpc x0 13) (wpc x1 13) (hpc x0 14) (wpc x1 14))
    (k0_pay8 (wpc x1 15)) (k0_pay9 (hpc x0 15)) (View.ld x2 brow)

/-- The output buffer after the body: its one store, over the whole buffer. -/
def out3 (x0 : Vec F S64x1024 .f32) (x1 : Vec F S128x1024 .f32) (x2 : Vec F S1x128 .f32) : Vec F S64x128 .f32 :=
  View.canon [⟨oall, stored x0 x1 x2⟩]

/-- That store covers the buffer. -/
theorem cover3 (p0 : Vec F S64x128 .f32) (y : S64x128.Idx) :
    ∃ pc ∈ ([⟨oall, p0⟩] : List (View.Piece (Elt F) S64x128 .f32)), y ∈ pc.1.set :=
  View.cover_of_tiled [⟨oall, p0⟩] S64x128.size (by rfl) y

/-! ## The body's triple -/

set_option maxHeartbeats 1000000 in
/-- On whole staging memrefs, the three inputs' at known contents and the output's at anything, the body runs to its
    continuation with the inputs' as they were and the output's at `out3` of them. -/
theorem sound_kernel (c : Dev nD) (E : Set ℕ) (i : grid0.Coords)
    (arg2 : Memref sig .tc .vmem S64x1024 .f32) (harg2 : arg2.IsWhole) (arg3 : Memref sig .tc .vmem S128x1024 .f32) (harg3 : arg3.IsWhole)
    (arg4 : Memref sig .tc .vmem S1x128 .f32) (harg4 : arg4.IsWhole) (arg5 : Memref sig .tc .vmem S64x128 .f32) (harg5 : arg5.IsWhole)
    (x0 : Vec F S64x1024 .f32) (x1 : Vec F S128x1024 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3 x0 x1 x2)) -∗ K ⟨⟩))
      ⊢ wp frame (wpE (defs₀ (F := F)) Variants.none c none) E (cc0__qfbn_kernel i arg2 harg2 arg3 harg3 arg4 harg4 arg5 harg5) K := by
  simp only [cc0__qfbn_kernel_eq_skeleton]; unfold cc0__qfbn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

end Cert.Kernel.Frm

end
-- ==== Proof.BitsRun.lean ====
/-
  The word-level kernel's run: every grid point's body call, the launch, and the frame.

  The proof data say, per grid point: each of the three input windows' staging buffers holds its block of its
  array (before and after the body, which only reads them), and the output window's buffer holds, after the
  body, the body's function of those three blocks. With the body's triple this is the pipeline library's
  obligation at every point; the library's launch theorem then runs @main — host prefix, staging, the 32 points,
  write-back — to a state in which every window's array is what the proof data compute and every other buffer
  is as the region found it. The frame claim is that state read at the four argument arrays.
-/
import proofs.«174924_j44813688767074_2_alg».proof.Proof.BitsEntry
import proofs.«174924_j44813688767074_2_alg».proof.Proof.BitsBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input window's buffer at its
    block and the output window's at the body's function of the three input blocks; the invariant is the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state
    every window's array is what the library computes from the proof data and every other unscoped buffer is as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.IdealEntry.lean ====
/-
  The idealized kernel's @main up to its one region, read as a frame.

  The program is 27 host operations (the mixing weights: a softmax over the last axis of the logits, the stack
  of W, tanh W and sin W joined along that axis, their weighted sum; and the bias re-laid as one row), then one
  pipelined region over a 4 x 8 grid. This module says what every TensorCore buffer holds when the region is
  entered (the host prefix folded over the launch memory), that none of the four argument arrays is written by
  the prefix, what block of its array each window shows at a grid point, that an input window's staging buffer
  holds exactly that block at every point (fetched there, or kept from the point before when the index map
  has not moved), and how a run of the region to the pipeline library's frame post gives back the four
  argument arrays unchanged. Everything is stated for any float instance.
-/
import proofs.«174924_j44813688767074_2_alg».proof.Proof.Gen.KernelIdeal.Launch
import proofs.«174924_j44813688767074_2_alg».proof.Proof.Gen.KernelIdeal.Skeleton
import proofs.«174924_j44813688767074_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at the region's entry -/

/-- Core `c`'s TensorCore buffers when the region is entered: the host prefix folded over the launch memory. -/
abbrev V (c : Dev nD) (b : Ref sig .tc) : Buf (Elt F) ((c : Thread nD τ).loc b) :=
  StableHlo.after (List.flatten [hostOps0]) (fun b => m (c, b)) b

/-- No host operation of the prefix allocates: each writes a buffer of the signature. -/
theorem hostOps0_fresh : (hostOps0 : List (HloOp τ sig (Elt F))).Forall fun op => op.fresh = ∅ := by
  simp only [List.Forall]; repeat' constructor

/-- @main is the host prefix and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (show List.Forall _ [hostOps0] from (hostOps0_sub : List.Forall _ hostOps0))
    (show List.Forall _ [hostOps0] from (hostOps0_fresh : List.Forall _ hostOps0)) main_chain

/-- The activations are written by no host operation: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the weights, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- nor the bias, -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- nor the mixing logits. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' window (64 rows, all 1024 columns; its index moves only with the first grid axis) holds its
    block at every point: fetched where the row block changes, kept from the point before elsewhere. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The mixed weights' window (128 rows, all columns) holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias row's window (128 entries) holds its block at every point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a frame run -/

/-- From a run of @main to the pipeline library's frame post: the activations are window 0's array, an input,
    so they end as the region found them; the weights, the bias and the logits are staged by no window, so they end
    as the region found them; and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.KernelIdeal.Frm

end
-- ==== Proof.IdealBody.lean ====
/-
  What one call of the kernel body does to its four staging buffers.

  The body reads the activations' buffer (64 x 1024) and the mixed weights' buffer (128 x 1024) sixteen times
  each, 64 columns at a time, adds up over the sixteen column chunks the row-by-row sums of tanh of the products,
  adds the bias row, and stores the 64 x 128 result over the whole output buffer (after one load of that buffer
  whose value it never uses). So after the body the three input buffers hold what they held and the output
  buffer holds one function of them; the arithmetic stays folded inside the skeleton's named payloads.
-/
import proofs.«174924_j44813688767074_2_alg».proof.Proof.Gen.KernelIdeal.Launch
import proofs.«174924_j44813688767074_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- Columns 64 r … 64 r + 63 of the activations' buffer, all 64 rows. -/
abbrev hcols (r : Fin 16) : Rect S64x1024 := Rect.unit (s := S64x1024) (k0_off1 (BitVec.ofNat 32 r.val)) S64x64.size (k0_off1_inb r)
/-- The same columns of the mixed weights' buffer, all 128 rows. -/
abbrev wcols (r : Fin 16) : Rect S128x1024 := Rect.unit (s := S128x1024) (k0_off2 (BitVec.ofNat 32 r.val)) S128x64.size (k0_off2_inb r)
/-- The whole bias row. -/
abbrev brow : Rect S1x128 := Rect.unit (s := S1x128) ![0, 0] S1x128.size inb_S1x128_S1x128_0_0
/-- The whole output buffer. -/
abbrev oall : Rect S64x128 := Rect.unit (s := S64x128) ![0, 0] S64x128.size inb_S64x128_S64x128_0_0

/-- Column chunk `r` of the activations' buffer, as the body loads it. -/
abbrev hpc (x0 : Vec F S64x1024 .f32) (r : Fin 16) : Vec F S64x64 .f32 := View.ld x0 (hcols r)
/-- Column chunk `r` of the mixed weights' buffer. -/
abbrev wpc (x1 : Vec F S128x1024 .f32) (r : Fin 16) : Vec F S128x64 .f32 := View.ld x1 (wcols r)

/-- The value the body stores: the running sum over the sixteen chunks (chunks 0–1, then 2, then 3–5, 6–8, 9–11,
    12–14 and last 15, as the body's straight-line text groups them), plus the bias row. -/
def stored (x0 : Vec F S64x1024 .f32) (x1 : Vec F S128x1024 .f32) (x2 : Vec F S1x128 .f32) : FVec F S64x128 .f32 :=
  k0_pay1
    (k0_pay7
      (k0_pay6
        (k0_pay5
          (k0_pay4 (k0_pay2 (hpc x0 0) (wpc x1 0) (hpc x0 1) (wpc x1 1)) (k0_pay3 (hpc x0 2) (wpc x1 2))
            (hpc x0 3) (wpc x1 3) (hpc x0 4) (wpc x1 4) (hpc x0 5) (wpc x1 5))
          (hpc x0 6) (wpc x1 6) (hpc x0 7) (wpc x1 7) (hpc x0 8) (wpc x1 8))
        (hpc x0 9) (wpc x1 9) (hpc x0 10) (wpc x1 10) (hpc x0 11) (wpc x1 11))
      (hpc x0 12) (wpc x1 12) (hpc x0 13) (wpc x1 13) (hpc x0 14) (wpc x1 14))
    (k0_pay8 (wpc x1 15)) (k0_pay9 (hpc x0 15)) (View.ld x2 brow)

/-- The output buffer after the body: its one store, over the whole buffer. -/
def out3 (x0 : Vec F S64x1024 .f32) (x1 : Vec F S128x1024 .f32) (x2 : Vec F S1x128 .f32) : Vec F S64x128 .f32 :=
  View.canon [⟨oall, stored x0 x1 x2⟩]

/-- That store covers the buffer. -/
theorem cover3 (p0 : Vec F S64x128 .f32) (y : S64x128.Idx) :
    ∃ pc ∈ ([⟨oall, p0⟩] : List (View.Piece (Elt F) S64x128 .f32)), y ∈ pc.1.set :=
  View.cover_of_tiled [⟨oall, p0⟩] S64x128.size (by rfl) y

/-! ## The body's triple -/

set_option maxHeartbeats 1000000 in
/-- On whole staging memrefs, the three inputs' at known contents and the output's at anything, the body runs to its
    continuation with the inputs' as they were and the output's at `out3` of them. -/
theorem sound_kernel (c : Dev nD) (E : Set ℕ) (i : grid0.Coords)
    (arg2 : Memref sig .tc .vmem S64x1024 .f32) (harg2 : arg2.IsWhole) (arg3 : Memref sig .tc .vmem S128x1024 .f32) (harg3 : arg3.IsWhole)
    (arg4 : Memref sig .tc .vmem S1x128 .f32) (harg4 : arg4.IsWhole) (arg5 : Memref sig .tc .vmem S64x128 .f32) (harg5 : arg5.IsWhole)
    (x0 : Vec F S64x1024 .f32) (x1 : Vec F S128x1024 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3 x0 x1 x2)) -∗ K ⟨⟩))
      ⊢ wp frame (wpE (defs₀ (F := F)) Variants.none c none) E (cc0__qfbn_kernel i arg2 harg2 arg3 harg3 arg4 harg4 arg5 harg5) K := by
  simp only [cc0__qfbn_kernel_eq_skeleton]; unfold cc0__qfbn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

end Cert.KernelIdeal.Frm

end
-- ==== Proof.IdealRun.lean ====
/-
  The idealized kernel's run: every grid point's body call, the launch, and the frame.

  The proof data say, per grid point: each of the three input windows' staging buffers holds its block of its
  array (before and after the body, which only reads them), and the output window's buffer holds, after the
  body, the body's function of those three blocks. With the body's triple this is the pipeline library's
  obligation at every point; the library's launch theorem then runs @main — host prefix, staging, the 32 points,
  write-back — to a state in which every window's array is what the proof data compute and every other buffer
  is as the region found it. The frame claim is that state read at the four argument arrays.
-/
import proofs.«174924_j44813688767074_2_alg».proof.Proof.IdealEntry
import proofs.«174924_j44813688767074_2_alg».proof.Proof.IdealBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input window's buffer at its
    block and the output window's at the body's function of the three input blocks; the invariant is the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state
    every window's array is what the library computes from the proof data and every other unscoped buffer is as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.IdealChunk.lean ====
/-
  One column chunk of the kernel's body, read at an output position.

  For a 64 x 64 piece `hh` of the activations' block and a 128 x 64 piece `ww` of the mixed weights' block, the body
  forms the 64 x 128 x 64 array of products hh[p,k] * ww[q,k] (each piece re-laid with a unit axis and repeated along
  it), takes tanh of every entry and adds up over the last axis from zero. Read at (p, q) that is the sum over the 64
  columns k of tanh (hh[p,k] * ww[q,k]). A piece loaded from columns 64 r … 64 r + 63 of a buffer is that buffer at
  column 64 r + k.
-/
import proofs.«174924_j44813688767074_2_alg».proof.Proof.IdealBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.ValueIdx
open scoped BigOperators

/-! ## The body's three re-layings, read at an index -/

/-- A 64 x 64 piece re-laid as 64 x 1 x 64 reads, at (p, u, k), the piece at (p, k). -/
theorem relaid_rows (x : S64x64.Idx → EReal) (h : S64x64.ShapeCasts S64x1x64) (p : Fin 64) (u : Fin 1) (k : Fin 64) :
    shapeCast S64x1x64 x h (ix3 p u k) = x (ix2 p k) :=
  shapeCast_apply x h _ _ (by
    have hu : u.val = 0 := by omega
    rw [Shape.rowMajor_val_three, Shape.rowMajor_val_two]
    show p.val * 64 + k.val = (p.val * 1 + u.val) * 64 + k.val
    rw [hu]; omega)

/-- Repeated along the middle axis, 64 x 1 x 64 to 64 x 128 x 64, it reads at (p, q, k) the operand at (p, 0, k). -/
theorem spread_rows (x : S64x1x64.Idx → EReal) (h : S64x1x64.Broadcasts S64x128x64) (p : Fin 64) (q : Fin 128) (k : Fin 64) :
    broadcastTo S64x128x64 x h (ix3 p q k) = x (ix3 p (0 : Fin 1) k) :=
  broadcastTo_apply x h _ _ (fun a => match a with
    | ⟨0, _⟩ => by show p.val = if (64 : Nat) = 1 then 0 else p.val; rw [if_neg (by decide)]
    | ⟨1, _⟩ => by show (0 : Nat) = if (1 : Nat) = 1 then 0 else q.val; rw [if_pos rfl]
    | ⟨2, _⟩ => by show k.val = if (64 : Nat) = 1 then 0 else k.val; rw [if_neg (by decide)])

/-- Repeated along the leading axis, 1 x 128 x 64 to 64 x 128 x 64, it reads at (p, q, k) the operand at (0, q, k). -/
theorem spread_cols (x : S1x128x64.Idx → EReal) (h : S1x128x64.Broadcasts S64x128x64) (p : Fin 64) (q : Fin 128) (k : Fin 64) :
    broadcastTo S64x128x64 x h (ix3 p q k) = x (ix3 (0 : Fin 1) q k) :=
  broadcastTo_apply x h _ _ (fun a => match a with
    | ⟨0, _⟩ => by show (0 : Nat) = if (1 : Nat) = 1 then 0 else p.val; rw [if_pos rfl]
    | ⟨1, _⟩ => by show q.val = if (128 : Nat) = 1 then 0 else q.val; rw [if_neg (by decide)]
    | ⟨2, _⟩ => by show k.val = if (64 : Nat) = 1 then 0 else k.val; rw [if_neg (by decide)])

/-- The bias row repeated down the 64 rows reads at (p, q) the row at (0, q). -/
theorem spread_bias (x : S1x128.Idx → EReal) (h : S1x128.Broadcasts S64x128) (p : Fin 64) (q : Fin 128) :
    broadcastTo S64x128 x h (ix2 p q) = x (ix2 (0 : Fin 1) q) :=
  broadcastTo_apply x h _ _ (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! ## One chunk -/

/-- One chunk's contribution at (p, q): the sum over the chunk's 64 columns of tanh of the products. -/
theorem chunk_apply (hh : Vec Ideal S64x64 .f32) (ww : Vec Ideal S128x64 .f32) (p : Fin 64) (q : Fin 128)
    (hacc : (0x00000000#32 : BitVec 32) = 0x00000000#32) :
    multiReduction (F := Ideal) .add [2] S64x128
        (tanh (mulf (broadcastTo S64x128x64 (shapeCast S64x1x64 hh shapeCasts_S64x64_S64x1x64) broadcasts_S64x1x64_S64x128x64)
          (broadcastTo S64x128x64 (shapeCast S1x128x64 (shapeCast S128x64 ww shapeCasts_S128x64_S128x64) shapeCasts_S128x64_S1x128x64)
            broadcasts_S1x128x64_S64x128x64)))
        0x00000000#32 reduces_S64x128x64_S64x128 (.inl rfl) hacc (ix2 p q)
      = ∑ k : Fin 64, Ideal.tanh (hh (ix2 p k) * ww (ix2 q k)) := by
  refine (Ideal.multiReduction_add_single _ 0x00000000#32 reduces_S64x128x64_S64x128 (.inl rfl) hacc (ix2 p q)).trans ?_
  refine Finset.sum_congr rfl fun (k : Fin 64) _ => ?_
  have hl : reduces_S64x128x64_S64x128.lift (ix2 p q) k = ix3 p q k :=
    funext fun a => Fin.ext (by match a with | ⟨0, _⟩ => rfl | ⟨1, _⟩ => rfl | ⟨2, _⟩ => rfl)
  rw [hl]
  show Ideal.tanh (broadcastTo S64x128x64 (shapeCast S64x1x64 hh shapeCasts_S64x64_S64x1x64) broadcasts_S64x1x64_S64x128x64 (ix3 p q k)
      * broadcastTo S64x128x64 (shapeCast S1x128x64 (shapeCast S128x64 ww shapeCasts_S128x64_S128x64) shapeCasts_S128x64_S1x128x64)
          broadcasts_S1x128x64_S64x128x64 (ix3 p q k)) = _
  rw [spread_rows, spread_cols, relaid_rows, shapeCast_ab_1ab_apply, shapeCast_self]

/-! ## A column chunk of a buffer, read at an index -/

/-- The offsets of chunk `r`'s load from the activations' buffer: row 0, column 64 r. -/
theorem hoff : ∀ r : Fin 16, k0_off1 (BitVec.ofNat 32 r.val) = ![0, 64 * r.val] := by decide
/-- The same for the mixed weights' buffer. -/
theorem woff : ∀ r : Fin 16, k0_off2 (BitVec.ofNat 32 r.val) = ![0, 64 * r.val] := by decide

/-- Chunk `r` of the activations' buffer at (p, k) is the buffer at (p, 64 r + k). -/
theorem hpc_apply (x0 : Vec Ideal S64x1024 .f32) (r : Fin 16) (p : Fin 64) (k : Fin 64) :
    hpc x0 r (ix2 p k) = x0 (ix2 p ⟨64 * r.val + k.val, by have := r.isLt; have := k.isLt; omega⟩) := by
  show x0 ((hcols r).idx (ix2 p k)) = _
  refine congrArg x0 (funext fun a => Fin.ext ?_)
  match a with
  | ⟨0, _⟩ =>
    show k0_off1 (BitVec.ofNat 32 r.val) 0 + 1 * p.val = p.val
    rw [hoff r]; show 0 + 1 * p.val = p.val; omega
  | ⟨1, _⟩ =>
    show k0_off1 (BitVec.ofNat 32 r.val) 1 + 1 * k.val = 64 * r.val + k.val
    rw [hoff r]; show 64 * r.val + 1 * k.val = 64 * r.val + k.val; omega

/-- Chunk `r` of the mixed weights' buffer at (q, k) is the buffer at (q, 64 r + k). -/
theorem wpc_apply (x1 : Vec Ideal S128x1024 .f32) (r : Fin 16) (q : Fin 128) (k : Fin 64) :
    wpc x1 r (ix2 q k) = x1 (ix2 q ⟨64 * r.val + k.val, by have := r.isLt; have := k.isLt; omega⟩) := by
  show x1 ((wcols r).idx (ix2 q k)) = _
  refine congrArg x1 (funext fun a => Fin.ext ?_)
  match a with
  | ⟨0, _⟩ =>
    show k0_off2 (BitVec.ofNat 32 r.val) 0 + 1 * q.val = q.val
    rw [woff r]; show 0 + 1 * q.val = q.val; omega
  | ⟨1, _⟩ =>
    show k0_off2 (BitVec.ofNat 32 r.val) 1 + 1 * k.val = 64 * r.val + k.val
    rw [woff r]; show 64 * r.val + 1 * k.val = 64 * r.val + k.val; omega

end Cert.KernelIdeal.Val

end
-- ==== Proof.LayerSpec.lean ====
/-
  The layer both programs compute, and the one law that joins their two arrangements of it.

  With activations h (256 x 1024), mixed weights E (1024 x 1024) and a bias row (1 x 1024), the result at (b, o) is
      sum over the 1024 input columns k of tanh (h[b,k] * E[o,k]),  plus  bias[o],
  on the extended reals. The reference adds the 1024 terms in one sum; the kernel adds them sixteen runs of 64 columns
  at a time. Addition on the extended reals is commutative and associative (no finiteness is needed for that), so a
  sum over 1024 consecutive columns is the sum, over the sixteen runs, of each run's sum.
-/
import Idealize.ShloMosaic.PureOps.Ideal
import Idealize.ShloMosaic.Lib.ValueIdx

noncomputable section

namespace Cert.LayerSpec

open Idealize.ShloMosaic Idealize.ShloMosaic.ValueIdx
open scoped BigOperators

/-- The layer's value at every (b, o). -/
def layer (h : (⟨2, ![256, 1024]⟩ : Shape).Idx → EReal) (E : (⟨2, ![1024, 1024]⟩ : Shape).Idx → EReal)
    (bias : (⟨2, ![1, 1024]⟩ : Shape).Idx → EReal) : (⟨2, ![256, 1024]⟩ : Shape).Idx → EReal :=
  fun i => (∑ k : Fin 1024, Ideal.tanh (h (ix2 (i 0 : Fin 256) k) * E (ix2 (i 1 : Fin 1024) k)))
    + bias (ix2 (0 : Fin 1) (i 1 : Fin 1024))

/-- A family over the 1024 columns, continued by zero past them (so that a column can be named by a natural number). -/
def past (f : Fin 1024 → EReal) (n : ℕ) : EReal := if h : n < 1024 then f ⟨n, h⟩ else 0

theorem past_of_lt (f : Fin 1024 → EReal) (n : ℕ) (h : n < 1024) : past f n = f ⟨n, h⟩ := dif_pos h

/-- A sum over the first R * 64 naturals, run by run. -/
theorem sum_by_runs {M : Type} [AddCommMonoid M] (g : ℕ → M) (R : ℕ) :
    ∑ n ∈ Finset.range (R * 64), g n = ∑ r ∈ Finset.range R, ∑ k : Fin 64, g (64 * r + k.val) := by
  induction R with
  | zero => simp
  | succ R ih =>
    rw [Nat.succ_mul, Finset.sum_range_add, ih, Finset.sum_range_succ (fun r => ∑ k : Fin 64, g (64 * r + k.val)) R]
    congr 1
    rw [Fin.sum_univ_eq_sum_range (fun k => g (64 * R + k)) 64]
    refine Finset.sum_congr rfl fun k _ => ?_
    rw [Nat.mul_comm]

/-- The sum over all 1024 columns is the sum over the sixteen runs of each run's sum. -/
theorem sum_sixteen_runs (f : Fin 1024 → EReal) :
    ∑ k : Fin 1024, f k = ∑ r ∈ Finset.range 16, ∑ k : Fin 64, past f (64 * r + k.val) := by
  have h1 : ∑ k : Fin 1024, f k = ∑ k : Fin 1024, past f k.val :=
    Finset.sum_congr rfl fun k _ => (past_of_lt f k.val k.isLt).symm
  rw [h1, Fin.sum_univ_eq_sum_range (past f) 1024]
  exact sum_by_runs (past f) 16

end Cert.LayerSpec

end
-- ==== Proof.IdealStored.lean ====
/-
  The value the body stores, read at an output position of the block.

  The skeleton's payloads are, once their local names are unfolded, nothing but additions of chunk arrays: starting
  from the zero array, the sixteen chunks' row sums are added one after the other, and last the bias row repeated
  down the rows. So at (p, q) the stored value is
      ((…((0 + C 0) + C 1) + …) + C 15) + bias[0, q],   C r = the sum over the 64 columns of run r of tanh (x0[p,·] * x1[q,·]),
  which is the sum over all 1024 columns, plus the bias entry: the spec's run-by-run form of the same sum.
-/
import proofs.«174924_j44813688767074_2_alg».proof.Proof.IdealChunk
import proofs.«174924_j44813688767074_2_alg».proof.Proof.LayerSpec

set_option maxRecDepth 16384

noncomputable section

namespace Cert.KernelIdeal.Val

open Cert.KernelIdeal Cert.KernelIdeal.Gen Cert.KernelIdeal.Frm Cert.LayerSpec
open Idealize.ShloMosaic Idealize.ShloMosaic.ValueIdx
open scoped BigOperators

/-- One chunk's 64 x 128 array of row sums. -/
def chunkv (hh : Vec Ideal S64x64 .f32) (ww : Vec Ideal S128x64 .f32) : FVec Ideal S64x128 .f32 :=
  multiReduction (F := Ideal) .add [2] S64x128
    (tanh (mulf (broadcastTo S64x128x64 (shapeCast S64x1x64 hh shapeCasts_S64x64_S64x1x64) broadcasts_S64x1x64_S64x128x64)
      (broadcastTo S64x128x64 (shapeCast S1x128x64 (shapeCast S128x64 ww shapeCasts_S128x64_S128x64) shapeCasts_S128x64_S1x128x64)
        broadcasts_S1x128x64_S64x128x64)))
    0x00000000#32 reduces_S64x128x64_S64x128 (.inl rfl) rfl

/-- The zero array the accumulation starts from. -/
def zeros : FVec Ideal S64x128 .f32 := broadcast S64x128 (Scalar.ofBits (F := Ideal) .f32 0x00000000#32)

/-! ## The payloads are additions of chunk arrays -/

theorem pay2_eq (h0 : Vec Ideal S64x64 .f32) (w0 : Vec Ideal S128x64 .f32) (h1 : Vec Ideal S64x64 .f32) (w1 : Vec Ideal S128x64 .f32) :
    k0_pay2 h0 w0 h1 w1 = addf (addf zeros (chunkv h0 w0)) (chunkv h1 w1) := rfl
theorem pay3_eq (h : Vec Ideal S64x64 .f32) (w : Vec Ideal S128x64 .f32) : k0_pay3 h w = chunkv h w := rfl
theorem pay4_eq (a b : FVec Ideal S64x128 .f32) (h3 : Vec Ideal S64x64 .f32) (w3 : Vec Ideal S128x64 .f32)
    (h4 : Vec Ideal S64x64 .f32) (w4 : Vec Ideal S128x64 .f32) (h5 : Vec Ideal S64x64 .f32) (w5 : Vec Ideal S128x64 .f32) :
    k0_pay4 a b h3 w3 h4 w4 h5 w5 = addf (addf (addf (addf a b) (chunkv h3 w3)) (chunkv h4 w4)) (chunkv h5 w5) := rfl
theorem pay5_eq (a : FVec Ideal S64x128 .f32) (h3 : Vec Ideal S64x64 .f32) (w3 : Vec Ideal S128x64 .f32)
    (h4 : Vec Ideal S64x64 .f32) (w4 : Vec Ideal S128x64 .f32) (h5 : Vec Ideal S64x64 .f32) (w5 : Vec Ideal S128x64 .f32) :
    k0_pay5 a h3 w3 h4 w4 h5 w5 = addf (addf (addf a (chunkv h3 w3)) (chunkv h4 w4)) (chunkv h5 w5) := rfl
theorem pay6_eq (a : FVec Ideal S64x128 .f32) (h3 : Vec Ideal S64x64 .f32) (w3 : Vec Ideal S128x64 .f32)
    (h4 : Vec Ideal S64x64 .f32) (w4 : Vec Ideal S128x64 .f32) (h5 : Vec Ideal S64x64 .f32) (w5 : Vec Ideal S128x64 .f32) :
    k0_pay6 a h3 w3 h4 w4 h5 w5 = addf (addf (addf a (chunkv h3 w3)) (chunkv h4 w4)) (chunkv h5 w5) := rfl
theorem pay7_eq (a : FVec Ideal S64x128 .f32) (h3 : Vec Ideal S64x64 .f32) (w3 : Vec Ideal S128x64 .f32)
    (h4 : Vec Ideal S64x64 .f32) (w4 : Vec Ideal S128x64 .f32) (h5 : Vec Ideal S64x64 .f32) (w5 : Vec Ideal S128x64 .f32) :
    k0_pay7 a h3 w3 h4 w4 h5 w5 = addf (addf (addf a (chunkv h3 w3)) (chunkv h4 w4)) (chunkv h5 w5) := rfl
theorem pay1_eq (a : FVec Ideal S64x128 .f32) (h : Vec Ideal S64x64 .f32) (w : Vec Ideal S128x64 .f32) (b : Vec Ideal S1x128 .f32) :
    k0_pay1 a (k0_pay8 w) (k0_pay9 h) b
      = addf (addf a (chunkv h w)) (broadcastTo S64x128 (shapeCast S1x128 b shapeCasts_S1x128_S1x128) broadcasts_S1x128_S64x128) := rfl

/-! ## Each piece at (p, q) -/

/-- Chunk `r`'s row sums at (p, q): the sum over run `r`'s 64 columns, the columns named by natural numbers. -/
theorem chunk_run (x0 : Vec Ideal S64x1024 .f32) (x1 : Vec Ideal S128x1024 .f32) (p : Fin 64) (q : Fin 128) (r : Fin 16) :
    chunkv (hpc x0 r) (wpc x1 r) (ix2 p q)
      = ∑ k : Fin 64, past (fun k => Ideal.tanh (x0 (ix2 p k) * x1 (ix2 q k))) (64 * r.val + k.val) := by
  unfold chunkv
  refine (chunk_apply (hpc x0 r) (wpc x1 r) p q rfl).trans ?_
  refine Finset.sum_congr rfl fun k _ => ?_
  rw [hpc_apply, wpc_apply, past_of_lt _ _ (by have := r.isLt; have := k.isLt; omega)]

theorem zeros_apply (i : S64x128.Idx) : zeros i = 0 := Ideal.ofBits_zero_f32

/-- The bias row as the body adds it, at (p, q): the row's entry q. -/
theorem bias_apply (x2 : Vec Ideal S1x128 .f32) (p : Fin 64) (q : Fin 128) :
    broadcastTo S64x128 (shapeCast S1x128 (View.ld x2 brow) shapeCasts_S1x128_S1x128) broadcasts_S1x128_S64x128 (ix2 p q)
      = x2 (ix2 (0 : Fin 1) q) := by
  rw [spread_bias]
  have hz : (![0, 0] : Fin 2 → Nat) = fun _ => 0 := funext fun a => by fin_cases a <;> rfl
  exact (congrFun (shapeCast_self (s := S1x128) (View.ld x2 brow) shapeCasts_S1x128_S1x128) _).trans
    (congrFun (View.ld_unit_zero (S := S1x128) hz inb_S1x128_S1x128_0_0 x2) _)

/-! ## The stored value at (p, q) -/

theorem stored_apply (x0 : Vec Ideal S64x1024 .f32) (x1 : Vec Ideal S128x1024 .f32) (x2 : Vec Ideal S1x128 .f32) (p : Fin 64) (q : Fin 128) :
    stored x0 x1 x2 (ix2 p q)
      = (∑ k : Fin 1024, Ideal.tanh (x0 (ix2 p k) * x1 (ix2 q k))) + x2 (ix2 (0 : Fin 1) q) := by
  rw [sum_sixteen_runs (fun k => Ideal.tanh (x0 (ix2 p k) * x1 (ix2 q k)))]
  simp only [Finset.sum_range_succ, Finset.sum_range_zero]
  unfold stored
  rw [pay1_eq, pay7_eq, pay6_eq, pay5_eq, pay4_eq, pay2_eq, pay3_eq]
  simp only [addf_apply]
  rw [bias_apply, zeros_apply, chunk_run x0 x1 p q 0, chunk_run x0 x1 p q 1, chunk_run x0 x1 p q 2, chunk_run x0 x1 p q 3,
    chunk_run x0 x1 p q 4, chunk_run x0 x1 p q 5, chunk_run x0 x1 p q 6, chunk_run x0 x1 p q 7, chunk_run x0 x1 p q 8,
    chunk_run x0 x1 p q 9, chunk_run x0 x1 p q 10, chunk_run x0 x1 p q 11, chunk_run x0 x1 p q 12, chunk_run x0 x1 p q 13,
    chunk_run x0 x1 p q 14, chunk_run x0 x1 p q 15]
  rfl

end Cert.KernelIdeal.Val

end
-- ==== Proof.IdealWeights.lean ====
/-
  What the region finds in its second and third windows' arrays.

  The array of mixed weights the region reads is written by the host prefix: the same 26 operations, in the same
  order with the same constants, as the reference's first 26 — so it is the reference's stage 20 of the same weights
  and logits. The bias row the region reads is the bias re-laid from 1024 entries to 1 x 1024, which entry by entry is
  the reference's own 1 x 1024 row of the bias (its stage 28).
-/
import proofs.«174924_j44813688767074_2_alg».proof.Proof.IdealEntry
import proofs.«174924_j44813688767074_2_alg».proof.Proof.Gen.ReferenceIdeal.Read
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

set_option maxHeartbeats 1000000 in
/-- The mixed weights at the region's entry are the reference's stage 20 of the launch weights and logits. -/
theorem entry_weights (c : Dev nD) :
    (V m c main_v20 : S1024x1024.Idx → EReal)
      = Cert.ReferenceIdeal.Read.val_main_v20 (F := Ideal) (m ((c : Thread nD τ).loc main_arg1)) (m ((c : Thread nD τ).loc main_arg3)) := by
  dsimp only [V]
  simp only [hostOps0, List.flatten_cons, List.flatten_nil, List.append_nil]
  after_results_simp <;> rfl

/-- The bias row at the region's entry is the reference's 1 x 1024 row of the launch bias. -/
theorem entry_bias (c : Dev nD) :
    (V m c main_v21 : S1x1024.Idx → EReal)
      = Cert.ReferenceIdeal.Read.val_main_v28 (F := Ideal) (m ((c : Thread nD τ).loc main_arg2)) := by
  dsimp only [V]
  simp only [hostOps0, List.flatten_cons, List.flatten_nil, List.append_nil]
  after_results_simp
  funext i
  obtain ⟨u, o, rfl⟩ : ∃ (u : Fin 1) (o : Fin 1024), i = ix2 u o := ⟨i 0, i 1, eq_ix2 i⟩
  show shapeCast S1x1024 (m ((c : Thread nD τ).loc main_arg2)) shapeCasts_S1024_S1x1024 (ix2 u o) = _
  refine (shapeCast_a_1a_apply (a := 1024) _ _ u o).trans ?_
  rw [Cert.ReferenceIdeal.Read.val_main_v28_apply]
  exact congrArg _ (funext fun a => Fin.ext (by match a with | ⟨0, _⟩ => rfl))

end Cert.KernelIdeal.Val

end
-- ==== Proof.IdealValue.lean ====
/-
  The idealized kernel's result array, as one function of the arrays the region is entered with.

  Grid point t = (bi, oi) reads rows 64 bi … 64 bi + 63 of the activations (all columns), rows 128 oi … 128 oi + 127 of
  the mixed weights (all columns) and entries 128 oi … 128 oi + 127 of the bias row, and writes back the 64 x 128 block
  of the result at rows 64 bi …, columns 128 oi …. What it writes back is that block of the layer's value; the 4 x 8
  blocks tile the 256 x 1024 result, so after the run the result array is the layer's value everywhere.
-/
import proofs.«174924_j44813688767074_2_alg».proof.Proof.IdealRun
import proofs.«174924_j44813688767074_2_alg».proof.Proof.IdealStored
import proofs.«174924_j44813688767074_2_alg».proof.Proof.IdealWeights

set_option maxRecDepth 16384

noncomputable section

namespace Cert.KernelIdeal.Val

open Cert.KernelIdeal Cert.KernelIdeal.Gen Cert.KernelIdeal.Frm Cert.LayerSpec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

theorem zero_off : (![0, 0] : Fin 2 → Nat) = fun _ => 0 := funext fun a => by fin_cases a <;> rfl

/-- The index maps, decided over the 32 grid points: the activations' block row is the result's block row and its
    block column 0; the weights' block row is the result's block column and its block column 0; the bias row's block is
    row 0, the result's block column; and the result's block indices stay inside 4 x 8. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 7 :=
  (by decide +kernel : ∀ t : Fin grid0.N, _)

/-- Every one of the 4 x 8 result blocks is some grid point's. -/
theorem index_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

set_option maxHeartbeats 1000000 in
/-- What grid point `t` writes back is block `t` of the layer's value of the arrays the region found. -/
theorem flushed_eq (c : Dev nD) (t : Fin cfg0.N) :
    (dats m 0 c).flushed 3 t
      = ((cfg0.win 3).blk t).view.read (Elt Ideal) (layer (V m c main_arg0) (V m c main_v20) (V m c main_v21)) := by
  show (cfg0.win 3).cut (grid0.coords t) ((dats m 0 c).after 3 t) = _
  rw [after3]
  unfold out3
  rw [View.canon_unit_zero zero_off]
  obtain ⟨e0, e1, e2, e3, e4, e5, e6, e7⟩ := index_facts t
  funext (j : S64x128.Idx)
  obtain ⟨p, q, rfl⟩ : ∃ (p : Fin 64) (q : Fin 128), j = ix2 p q := ⟨j 0, j 1, eq_ix2 j⟩
  show stored (iblk m c 0 t) (iblk m c 1 t) (iblk m c 2 t) (ix2 p q)
      = layer (V m c main_arg0) (V m c main_v20) (V m c main_v21) (((cfg0.win 3).blk t).view.emb (ix2 p q))
  refine (stored_apply (iblk m c 0 t) (iblk m c 1 t) (iblk m c 2 t) p q).trans ?_
  have hA : ∀ k : Fin 1024, iblk m c 0 t (ix2 p k)
      = V m c main_arg0 (ix2 ((((cfg0.win 3).blk t).view.emb (ix2 p q)) 0 : Fin 256) k) := fun k => by
    show V m c main_arg0 (((cfg0.win 0).blk t).view.emb (ix2 p k)) = _
    refine congrArg _ (funext fun a => Fin.ext ?_)
    match a with
    | ⟨0, _⟩ => show win0_0.index t (0 : Fin 2) * 64 + 1 * p.val = win0_3.index t (0 : Fin 2) * 64 + 1 * p.val; omega
    | ⟨1, _⟩ => show win0_0.index t (1 : Fin 2) * 1024 + 1 * k.val = k.val; omega
  have hE : ∀ k : Fin 1024, iblk m c 1 t (ix2 q k)
      = V m c main_v20 (ix2 ((((cfg0.win 3).blk t).view.emb (ix2 p q)) 1 : Fin 1024) k) := fun k => by
    show V m c main_v20 (((cfg0.win 1).blk t).view.emb (ix2 q k)) = _
    refine congrArg _ (funext fun a => Fin.ext ?_)
    match a with
    | ⟨0, _⟩ => show win0_1.index t (0 : Fin 2) * 128 + 1 * q.val = win0_3.index t (1 : Fin 2) * 128 + 1 * q.val; omega
    | ⟨1, _⟩ => show win0_1.index t (1 : Fin 2) * 1024 + 1 * k.val = k.val; omega
  have hB : iblk m c 2 t (ix2 (0 : Fin 1) q)
      = V m c main_v21 (ix2 (0 : Fin 1) ((((cfg0.win 3).blk t).view.emb (ix2 p q)) 1 : Fin 1024)) := by
    show V m c main_v21 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  simp only [hA, hE, hB]
  rfl

/-- An index of the result array is in grid point `t`'s block iff each coordinate is in the block's range. -/
theorem mem_block (t : Fin cfg0.N) (i : S256x1024.Idx) :
    i ∈ ((cfg0.win 3).blk t).view.set ↔ ∀ a : Fin 2, win0_3.index t a * S64x128.size a ≤ (i a).val
      ∧ (i a).val < win0_3.index t a * S64x128.size a + S64x128.size a := by
  show i ∈ ((View.whole main_v22).slice (win0_3.rect t)).set ↔ _
  rw [View.set_slice_whole, Rect.mem_set_unit]
  exact Iff.rfl

/-- The 4 x 8 blocks tile the result: entry (b, o) is in the block of the grid point at (b / 64, o / 128). -/
theorem covered (i : S256x1024.Idx) :
    ∃ t : Fin cfg0.N, (cfg0.win 3).flush t = true ∧ i ∈ ((cfg0.win 3).blk t).view.set := by
  have hi0 : (i 0).val < 256 := (i 0).isLt
  have hi1 : (i 1).val < 1024 := (i 1).isLt
  obtain ⟨t, ht⟩ := index_onto ⟨(i 0).val / 64, by omega⟩ ⟨(i 1).val / 128, by omega⟩
  have q0 : win0_3.index t (0 : Fin 2) = (i 0).val / 64 := congrFun ht 0
  have q1 : win0_3.index t (1 : Fin 2) = (i 1).val / 128 := congrFun ht 1
  refine ⟨t, flush0_3 t, ?_⟩
  rw [mem_block]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 128 ≤ (i 1).val ∧ (i 1).val < win0_3.index t (1 : Fin 2) * 128 + 128; omega

/-- The result array after the run: the layer's value of the arrays the region found. -/
theorem final (c : Dev nD) :
    (dats m 0 c).arrAt 3 cfg0.N = layer (V m c main_arg0) (V m c main_v20) (V m c main_v21) :=
  (dats m 0 c).arrAt_eq_of_cover 3 _ (fun t _ => flushed_eq m c t) covered

/-- The kernel's run with its result named: the layer's value of the launch activations, the mixed weights as the
    reference's stage 20 computes them from the launch weights and logits, and the launch bias as a row; the four
    arguments unchanged. -/
theorem run : θ_run defs (onTc (τ := τ) (main (F := Ideal))) ⟨m, fun _ => 0, ρ⟩ fun r => ∀ c : Dev nD,
      r.2.mem ((c : Thread nD τ).loc main_v22)
        = layer (m ((c : Thread nD τ).loc main_arg0))
            (Cert.ReferenceIdeal.Read.val_main_v20 (F := Ideal) (m ((c : Thread nD τ).loc main_arg1)) (m ((c : Thread nD τ).loc main_arg3)))
            (Cert.ReferenceIdeal.Read.val_main_v28 (F := Ideal) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      rw [← V_main_arg0 m c, ← entry_weights m c, ← entry_bias m c]
      exact ((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Val

end
-- ==== Proof.RefValue.lean ====
/-
  The reference's result is the layer's value.

  The reference repeats the activations along a new middle axis and the mixed weights along a new leading axis to
  256 x 1024 x 1024, multiplies, takes tanh, sums the last axis from zero, and adds the bias repeated down the rows. Read
  at (b, o): zero plus the sum over k of tanh (h[b,k] * E[o,k]), plus bias[o]. The mixed weights E and the bias as a
  1 x 1024 row are kept under the names of the stages that produce them; nothing here looks inside them.
-/
import proofs.«174924_j44813688767074_2_alg».proof.Proof.Gen.ReferenceIdeal.Read
import proofs.«174924_j44813688767074_2_alg».proof.Proof.LayerSpec

set_option maxRecDepth 16384

noncomputable section

namespace Cert.ReferenceIdeal.RefVal

open Cert.ReferenceIdeal Cert.ReferenceIdeal.Read Cert.LayerSpec
open Idealize.ShloMosaic Idealize.ShloMosaic.ValueIdx
open scoped BigOperators

/-- The reference's result array, as a function of its four arguments, is the layer's value of the activations, the
    mixed weights (stage 20 of the reference) and the bias as a row (stage 28). -/
theorem result_is_layer (x0 : (⟨S256x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024x3, .f32⟩ : BufTy).Contents (Elt Ideal)) :
    val_main_v30 (F := Ideal) x0 x1 x2 x3
      = layer x0 (val_main_v20 (F := Ideal) x1 x3) (val_main_v28 (F := Ideal) x2) := by
  funext i
  obtain ⟨b, o, rfl⟩ : ∃ (b : Fin 256) (o : Fin 1024), i = ix2 b o := ⟨i 0, i 1, eq_ix2 i⟩
  have i23 : ∀ k : Fin 1024, idx_main_v21 (idx_main_v23 (idx_main_v27 (ix2 b o) k)) = ix2 b k := fun k =>
    funext fun a => Fin.ext (by match a with | ⟨0, _⟩ => rfl | ⟨1, _⟩ => rfl)
  have i24 : ∀ k : Fin 1024, idx_main_v22 (idx_main_v24 (idx_main_v27 (ix2 b o) k)) = ix2 o k := fun k =>
    funext fun a => Fin.ext (by match a with | ⟨0, _⟩ => rfl | ⟨1, _⟩ => rfl)
  have i29 : idx_main_v29 (ix2 b o) = ix2 (0 : Fin 1) o :=
    funext fun a => Fin.ext (by match a with | ⟨0, _⟩ => rfl | ⟨1, _⟩ => rfl)
  rw [val_main_v30_apply, val_main_v27_apply, val_main_v29_apply, i29]
  simp only [val_main_v26_apply, val_main_v25_apply, val_main_v23_apply, val_main_v21_apply, val_main_v24_apply,
    val_main_v22_apply, i23, i24, val_main_cst_4_apply, Ideal.hostUnary_tanh_def, Ideal.mulf_def, Ideal.addf_def,
    Ideal.ofBits_def, Ideal.ofBits_zero_f32, zero_add]
  rfl

end Cert.ReferenceIdeal.RefVal

end
-- ==== Proof.lean ====
/-
  The kernel computes, for a batch of 256 activation rows h and 1024 output units, out[b, o] = sum over the 1024 input
  columns k of tanh (h[b,k] * E[o,k]) + bias[o], where the mixed weights E[o,k] are a softmax-weighted combination of
  W[o,k], tanh W[o,k] and sin W[o,k]. Both programs build E on the host by the same operations. The reference then forms
  the whole 256 x 1024 x 1024 array of products and sums its last axis; the kernel walks a 4 x 8 grid of 64 x 128 output
  blocks and, for each, adds up sixteen partial sums over 64 columns at a time, starting from zero.

  On the extended reals every operation is the exact one, so the only difference between the two is how one sum of 1024
  terms is grouped, and addition there is commutative and associative whatever the terms are: no finiteness of the
  inputs is used. The three frames say each program runs to the end and leaves its four argument arrays as they were; the
  idealization rewrote nothing, so its ledger is empty; and the last claim puts the two result arrays side by side.
-/
import proofs.«174924_j44813688767074_2_alg».proof.Defs
import proofs.«174924_j44813688767074_2_alg».proof.Proof.BitsRun
import proofs.«174924_j44813688767074_2_alg».proof.Proof.IdealValue
import proofs.«174924_j44813688767074_2_alg».proof.Proof.RefValue
import proofs.«174924_j44813688767074_2_alg».proof.Proof.Gen.Kernel
import proofs.«174924_j44813688767074_2_alg».proof.Proof.Gen.KernelIdeal
import proofs.«174924_j44813688767074_2_alg».proof.Proof.Gen.ReferenceIdeal
import proofs.«174924_j44813688767074_2_alg».proof.Proof.Gen.ReferenceIdeal.Read
import proofs.«174924_j44813688767074_2_alg».proof.Proof.Gen.Pre_finite_inputs
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Frm.frame m ρ

/-- So does the kernel read on the extended reals. -/
theorem frame_ideal : Cert.frame_KernelIdeal := fun m ρ _ => Cert.KernelIdeal.Frm.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the four arguments, both programs end with the layer's value of those arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefVal.result_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
